-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x512x512 : Shape := ⟨4, ![8, 64, 512, 512]⟩
abbrev S_ : Shape := ⟨0, ![]⟩

class Facts : Prop where
  bcast_S_S8x64x512x512 : S_.BroadcastsInDim S8x64x512x512 (![] : Fin 0 → Fin S8x64x512x512.rank)
  reducesTo_S8x64x512x512_S_d0_1_2_3 : S8x64x512x512.ReducesTo [0, 1, 2, 3] S_
  h_S_ : 0 < S_.numel

variable [Facts]

def fn {F : FTy → Type} [FloatOps F] (main_arg0 : FVec F S8x64x512x512 .f32) : IVec S_ 1 :=
  let main_v0 : FVec F S8x64x512x512 .f32 := Host.absf main_arg0
  let main_cst : FVec F S_ .f32 := constant S_ .f32 0x7F800000#32
  let main_v1 : FVec F S8x64x512x512 .f32 := broadcastInDim S8x64x512x512 ![] bcast_S_S8x64x512x512 main_cst
  let main_v2 : IVec S8x64x512x512 1 := cmpf .olt main_v0 main_v1
  let main_c : IVec S_ 1 := constantI S_ 1 1#1
  let main_v3 : IVec S_ 1 := (fun x v => Host.reduce IntOp.andi x v reducesTo_S8x64x512x512_S_d0_1_2_3 h_S_) main_v2 main_c
  main_v3
-- ==== Kernel.lean ====
abbrev S8x64x512x512 : Shape := ⟨4, ![8, 64, 512, 512]⟩
abbrev S512x512x512 : Shape := ⟨3, ![512, 512, 512]⟩
abbrev S2x512x512 : Shape := ⟨3, ![2, 512, 512]⟩
abbrev S2x1x512 : Shape := ⟨3, ![2, 1, 512]⟩
abbrev S2x514x512 : Shape := ⟨3, ![2, 514, 512]⟩
abbrev S2x514x1 : Shape := ⟨3, ![2, 514, 1]⟩
abbrev S2x514x514 : Shape := ⟨3, ![2, 514, 514]⟩

abbrev nBuf : Space → Nat
  | .hbm => 4
  | .vmem => 4
  | .smem => 0
  | _ => 0

abbrev bufTy : (tb : Table) → Fin (tcTables nBuf tb) → BufTy
  | .hbm, ⟨0, _⟩ => ⟨S8x64x512x512, .f32⟩
  | .hbm, ⟨1, _⟩ => ⟨S512x512x512, .f32⟩
  | .hbm, ⟨2, _⟩ => ⟨S512x512x512, .f32⟩
  | .hbm, ⟨3, _⟩ => ⟨S8x64x512x512, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | _, _ => ⟨S8x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x64x512x512_S512x512x512 : S8x64x512x512.ShapeCasts S512x512x512
  inb_S2x512x512_S2x512x512_0_0_0 : ∀ a, (![0, 0, 0] : Fin 3 → Nat) a + S2x512x512.size a ≤ S2x512x512.size a
  h_S2x512x512 : 0 < S2x512x512.numel
  shapeCasts_S2x512x512_S2x512x512 : S2x512x512.ShapeCasts S2x512x512
  concatenates_S2x1x512_S2x512x512_S2x1x512_S2x514x512_d1 : Shape.Concatenates [S2x1x512, S2x512x512, S2x1x512] S2x514x512 1
  concatenates_S2x514x1_S2x514x512_S2x514x1_S2x514x514_d2 : Shape.Concatenates [S2x514x1, S2x514x512, S2x514x1] S2x514x514 2
  slices_S2x514x514_o0_0_0_S2x512x512 : S2x514x514.Slices ![0, 0, 0] S2x512x512
  slices_S2x514x514_o0_0_1_S2x512x512 : S2x514x514.Slices ![0, 0, 1] S2x512x512
  slices_S2x514x514_o0_0_2_S2x512x512 : S2x514x514.Slices ![0, 0, 2] S2x512x512
  slices_S2x514x514_o0_1_0_S2x512x512 : S2x514x514.Slices ![0, 1, 0] S2x512x512
  slices_S2x514x514_o0_1_1_S2x512x512 : S2x514x514.Slices ![0, 1, 1] S2x512x512
  slices_S2x514x514_o0_1_2_S2x512x512 : S2x514x514.Slices ![0, 1, 2] S2x512x512
  slices_S2x514x514_o0_2_0_S2x512x512 : S2x514x514.Slices ![0, 2, 0] S2x512x512
  slices_S2x514x514_o0_2_1_S2x512x512 : S2x514x514.Slices ![0, 2, 1] S2x512x512
  slices_S2x514x514_o0_2_2_S2x512x512 : S2x514x514.Slices ![0, 2, 2] S2x512x512
  shapeCasts_S512x512x512_S8x64x512x512 : S512x512x512.ShapeCasts S8x64x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S512x512x512.size a
  hwx0_0 : ∀ i : grid0.Coords, EltTy.bits .f32 = 32 ∨ (Rect.block (s := S512x512x512) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S512x512x512.size a
  hwx0_1 : ∀ i : grid0.Coords, EltTy.bits .f32 = 32 ∨ (Rect.block (s := S512x512x512) S2x512x512.size (cc0_transform_1 i) (hinb0_1 i)).WholeWords (EltTy.packing .f32)

variable [Facts₀]

abbrev win0_0 : Pipeline.Window sig grid0 :=
  Pipeline.Window.ofSpec (Memref.whole main_v0) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x64x512x512 : Shape := ⟨4, ![8, 64, 512, 512]⟩
abbrev S_ : Shape := ⟨0, ![]⟩
abbrev S8x64x514x514 : Shape := ⟨4, ![8, 64, 514, 514]⟩

abbrev nBuf : Space → Nat
  | .hbm => 6
  | .vmem => 0
  | .smem => 0
  | _ => 0

abbrev bufTy : (tb : Table) → Fin (tcTables nBuf tb) → BufTy
  | .hbm, ⟨0, _⟩ => ⟨S8x64x512x512, .f32⟩
  | .hbm, ⟨1, _⟩ => ⟨S_, .f32⟩
  | .hbm, ⟨2, _⟩ => ⟨S_, .f32⟩
  | .hbm, ⟨3, _⟩ => ⟨S8x64x514x514, .f32⟩
  | .hbm, ⟨4, _⟩ => ⟨S_, .f32⟩
  | .hbm, ⟨5, _⟩ => ⟨S8x64x512x512, .f32⟩
  | _, _ => ⟨S8x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  pads_S8x64x512x512_S8x64x514x514_000_000_110_110 : S8x64x512x512.Pads (![0, 0, 1, 1] : Fin 4 → Nat) ![0, 0, 1, 1] ![0, 0, 0, 0] S8x64x514x514
  h_S_ : 0 < S_.numel
  reduceWindows_S8x64x514x514_S8x64x512x512_w1s1p0_0_w1s1p0_0_w3s1p0_0_w3s1p0_0 : S8x64x514x514.ReduceWindows (![1, 1, 3, 3] : Fin 4 → Nat) ![1, 1, 1, 1] ![0, 0, 0, 0] ![0, 0, 0, 0] S8x64x512x512

variable [Facts₀]

class Facts : Prop extends Facts₀ where

variable [Facts]
-- ==== Proof.LibRingWindow.lean ====
/-
  A stack of 512×512 images, each with one ring of a constant around it, and the 3×3 window read off the ringed image.

  `framed z f r s` is the ringed image at row `r`, column `s` of its 514×514 frame: the image's entry (r−1, s−1) where
  1 ≤ r, s ≤ 512, and the constant `z` on the ring. `window9 op q h w` combines the nine entries q (h+i) (w+j), 0 ≤ i, j ≤ 2,
  left to right and row by row, with the binary operation `op`.

  Two spellings of the ringed image are read at an index here: the ring laid on by two three-piece concatenations (a row of
  `z` above and below, then a column of `z` left and right), and unit-stride slices of the ringed stack at offsets (0, i, j).
-/
import Idealize.ShloMosaic.Lib.ValueIdx
import Idealize.ShloMosaic.Lib.Pipeline.Value

noncomputable section

namespace Cert.MinPool

open Idealize.ShloMosaic Idealize.ShloMosaic.ValueIdx

variable {α : Type}

/-- The ringed image at row `r` and column `s` of its frame. -/
def framed (z : α) (f : Fin 512 → Fin 512 → α) (r s : Nat) : α :=
  if hs : 1 ≤ s ∧ s ≤ 512 then (if hr : 1 ≤ r ∧ r ≤ 512 then f ⟨r - 1, by omega⟩ ⟨s - 1, by omega⟩ else z) else z

/-- The nine entries of the 3×3 window with top-left corner (h, w), combined left to right, row by row. -/
def window9 (op : α → α → α) (q : Nat → Nat → α) (h w : Nat) : α :=
  op (op (op (op (op (op (op (op (q h w) (q h (w + 1))) (q h (w + 2))) (q (h + 1) w)) (q (h + 1) (w + 1))) (q (h + 1) (w + 2)))
    (q (h + 2) w)) (q (h + 2) (w + 1))) (q (h + 2) (w + 2))

/-- The same fold started from a value `v` (a host window reduction starts from its initial value). -/
def window9From (op : α → α → α) (v : α) (q : Nat → Nat → α) (h w : Nat) : α :=
  op (op (op (op (op (op (op (op (op v (q h w)) (q h (w + 1))) (q h (w + 2))) (q (h + 1) w)) (q (h + 1) (w + 1))) (q (h + 1) (w + 2)))
    (q (h + 2) w)) (q (h + 2) (w + 1))) (q (h + 2) (w + 2))

/-- Started from a left identity of the operation, it is the fold of the nine entries alone. -/
theorem window9From_of_left_id (op : α → α → α) (v : α) (hv : ∀ a, op v a = a) (q : Nat → Nat → α) (h w : Nat) :
    window9From op v q h w = window9 op q h w := by
  unfold window9From window9
  rw [hv]

abbrev T2x512x512 : Shape := ⟨3, ![2, 512, 512]⟩
abbrev T2x1x512 : Shape := ⟨3, ![2, 1, 512]⟩
abbrev T2x514x512 : Shape := ⟨3, ![2, 514, 512]⟩
abbrev T2x514x1 : Shape := ⟨3, ![2, 514, 1]⟩
abbrev T2x514x514 : Shape := ⟨3, ![2, 514, 514]⟩

/-- A row of `z` laid above and below each image: row 0 and row 513 read `z`, row r in between reads the image's row r − 1. -/
theorem rows_apply (z : α) (x : T2x512x512.Idx → α)
    (h1 : Shape.Concatenates [T2x1x512, T2x512x512, T2x1x512] T2x514x512 1) (g : Fin 2) (r : Fin 514) (s : Fin 512) :
    concatenate T2x514x512 1 [⟨T2x1x512, broadcast T2x1x512 z⟩, ⟨T2x512x512, x⟩, ⟨T2x1x512, broadcast T2x1x512 z⟩] h1 (ix3 g r s)
      = if hr : 1 ≤ r.val ∧ r.val ≤ 512 then x (ix3 g ⟨r.val - 1, by omega⟩ s) else z := by
  by_cases hr : 1 ≤ r.val ∧ r.val ≤ 512
  · rw [dif_pos hr]
    exact concatenate_apply_piece (t := T2x514x512) (1 : Fin 3) [⟨T2x1x512, broadcast T2x1x512 z⟩, ⟨T2x512x512, x⟩, ⟨T2x1x512, broadcast T2x1x512 z⟩] h1 (ix3 g r s) 1 (by show (1 : Nat) < 3; omega) T2x512x512 x rfl rfl 1 rfl
      (ix3 g ⟨r.val - 1, by omega⟩ s)
      (fun b hb => match b, hb with | ⟨0, _⟩, _ => rfl | ⟨1, _⟩, hb => absurd rfl hb | ⟨2, _⟩, _ => rfl)
      (by show 1 + (r.val - 1) = r.val; omega)
  · rw [dif_neg hr]
    by_cases h0 : r.val = 0
    · exact concatenate_apply_piece (t := T2x514x512) (1 : Fin 3) [⟨T2x1x512, broadcast T2x1x512 z⟩, ⟨T2x512x512, x⟩, ⟨T2x1x512, broadcast T2x1x512 z⟩] h1 (ix3 g r s) 0 (by show (0 : Nat) < 3; omega) T2x1x512 (broadcast T2x1x512 z) rfl rfl 0 rfl
        (ix3 g ⟨0, by omega⟩ s)
        (fun b hb => match b, hb with | ⟨0, _⟩, _ => rfl | ⟨1, _⟩, hb => absurd rfl hb | ⟨2, _⟩, _ => rfl)
        (by show 0 + 0 = r.val; omega)
    · have h513 : r.val = 513 := by have := r.isLt; omega
      exact concatenate_apply_piece (t := T2x514x512) (1 : Fin 3) [⟨T2x1x512, broadcast T2x1x512 z⟩, ⟨T2x512x512, x⟩, ⟨T2x1x512, broadcast T2x1x512 z⟩] h1 (ix3 g r s) 2 (by show (2 : Nat) < 3; omega) T2x1x512 (broadcast T2x1x512 z) rfl rfl 513 rfl
        (ix3 g ⟨0, by omega⟩ s)
        (fun b hb => match b, hb with | ⟨0, _⟩, _ => rfl | ⟨1, _⟩, hb => absurd rfl hb | ⟨2, _⟩, _ => rfl)
        (by show 513 + 0 = r.val; omega)

/-- A column of `z` laid left and right of each image: column 0 and column 513 read `z`, column s in between reads the
    image's column s − 1. -/
theorem cols_apply (z : α) (y : T2x514x512.Idx → α)
    (h2 : Shape.Concatenates [T2x514x1, T2x514x512, T2x514x1] T2x514x514 2) (g : Fin 2) (r : Fin 514) (s : Fin 514) :
    concatenate T2x514x514 2 [⟨T2x514x1, broadcast T2x514x1 z⟩, ⟨T2x514x512, y⟩, ⟨T2x514x1, broadcast T2x514x1 z⟩] h2 (ix3 g r s)
      = if hs : 1 ≤ s.val ∧ s.val ≤ 512 then y (ix3 g r ⟨s.val - 1, by omega⟩) else z := by
  by_cases hs : 1 ≤ s.val ∧ s.val ≤ 512
  · rw [dif_pos hs]
    exact concatenate_apply_piece (t := T2x514x514) (2 : Fin 3) [⟨T2x514x1, broadcast T2x514x1 z⟩, ⟨T2x514x512, y⟩, ⟨T2x514x1, broadcast T2x514x1 z⟩] h2 (ix3 g r s) 1 (by show (1 : Nat) < 3; omega) T2x514x512 y rfl rfl 1 rfl
      (ix3 g r ⟨s.val - 1, by omega⟩)
      (fun b hb => match b, hb with | ⟨0, _⟩, _ => rfl | ⟨1, _⟩, _ => rfl | ⟨2, _⟩, hb => absurd rfl hb)
      (by show 1 + (s.val - 1) = s.val; omega)
  · rw [dif_neg hs]
    by_cases h0 : s.val = 0
    · exact concatenate_apply_piece (t := T2x514x514) (2 : Fin 3) [⟨T2x514x1, broadcast T2x514x1 z⟩, ⟨T2x514x512, y⟩, ⟨T2x514x1, broadcast T2x514x1 z⟩] h2 (ix3 g r s) 0 (by show (0 : Nat) < 3; omega) T2x514x1 (broadcast T2x514x1 z) rfl rfl 0 rfl
        (ix3 g r ⟨0, by omega⟩)
        (fun b hb => match b, hb with | ⟨0, _⟩, _ => rfl | ⟨1, _⟩, _ => rfl | ⟨2, _⟩, hb => absurd rfl hb)
        (by show 0 + 0 = s.val; omega)
    · have h513 : s.val = 513 := by have := s.isLt; omega
      exact concatenate_apply_piece (t := T2x514x514) (2 : Fin 3) [⟨T2x514x1, broadcast T2x514x1 z⟩, ⟨T2x514x512, y⟩, ⟨T2x514x1, broadcast T2x514x1 z⟩] h2 (ix3 g r s) 2 (by show (2 : Nat) < 3; omega) T2x514x1 (broadcast T2x514x1 z) rfl rfl 513 rfl
        (ix3 g r ⟨0, by omega⟩)
        (fun b hb => match b, hb with | ⟨0, _⟩, _ => rfl | ⟨1, _⟩, _ => rfl | ⟨2, _⟩, hb => absurd rfl hb)
        (by show 513 + 0 = s.val; omega)

/-- The two concatenations together are the ringed image. -/
theorem ring_apply (z : α) (x : T2x512x512.Idx → α)
    (h1 : Shape.Concatenates [T2x1x512, T2x512x512, T2x1x512] T2x514x512 1)
    (h2 : Shape.Concatenates [T2x514x1, T2x514x512, T2x514x1] T2x514x514 2) (g : Fin 2) (r : Fin 514) (s : Fin 514) :
    concatenate T2x514x514 2 [⟨T2x514x1, broadcast T2x514x1 z⟩,
        ⟨T2x514x512, concatenate T2x514x512 1 [⟨T2x1x512, broadcast T2x1x512 z⟩, ⟨T2x512x512, x⟩, ⟨T2x1x512, broadcast T2x1x512 z⟩] h1⟩,
        ⟨T2x514x1, broadcast T2x514x1 z⟩] h2 (ix3 g r s)
      = framed z (fun a b => x (ix3 g a b)) r.val s.val := by
  unfold framed
  rw [cols_apply]
  by_cases hs : 1 ≤ s.val ∧ s.val ≤ 512
  · rw [dif_pos hs, dif_pos hs, rows_apply]
  · rw [dif_neg hs, dif_neg hs]

/-- A unit-stride 512×512 slice of the ringed stack at offsets (0, i, j) reads the frame at (h + i, w + j). -/
theorem slice_apply (di dj : Nat) (hdi : di ≤ 2) (hdj : dj ≤ 2) (y : T2x514x514.Idx → α)
    (hs : T2x514x514.Slices ![0, di, dj] T2x512x512) (g : Fin 2) (h w : Fin 512) :
    extractStridedSlice T2x512x512 ![0, di, dj] y hs (ix3 g h w)
      = y (ix3 g ⟨h.val + di, by omega⟩ ⟨w.val + dj, by omega⟩) :=
  extractStridedSlice_apply _ _ _ _ _ fun a => match a with
    | ⟨0, _⟩ => by show g.val = 0 + g.val; omega
    | ⟨1, _⟩ => by show h.val + di = di + h.val; omega
    | ⟨2, _⟩ => by show w.val + dj = dj + w.val; omega

end Cert.MinPool

end
-- ==== Proof.Body.lean ====
/-
  What the kernel body stores, read at an index of its block of two images: at image g, row h, column w it is the minimum
  over the 3×3 window with top-left corner (h, w) of image g ringed by zeros — the nine unit-stride slices of the ringed
  block combined left to right, row by row, by the exact minimum of the extended reals.
-/
import proofs.«146294_j77695958384786_2_alg».proof.Proof.Gen.KernelIdeal.Skeleton
import proofs.«146294_j77695958384786_2_alg».proof.Proof.LibRingWindow
import Idealize.ShloMosaic.Lib.ValueIdx
import Idealize.ShloMosaic.Lib.Pipeline.Value

noncomputable section

namespace Cert.MinPool.Body

open Cert.KernelIdeal Cert.KernelIdeal.Gen Idealize.ShloMosaic Idealize.ShloMosaic.ValueIdx Cert.MinPool

/-- The zero the kernel rings each image with, as an extended real's word. -/
abbrev zero : Ideal .f32 := Scalar.ofBits (F := Ideal) .f32 0x00000000#32

/-- The stored value at (g, h, w): the window's minimum over the ringed image g of the loaded block. -/
theorem pay_apply (x0 : Vec Ideal S2x512x512 .f32) (g : Fin 2) (h w : Fin 512) :
    k0_pay1 (F := Ideal) x0 (ix3 g h w) = window9 min (framed zero (fun a b => x0 (ix3 g a b))) h.val w.val := by
  unfold k0_pay1 window9
  simp only [minimumf_apply, shapeCast_self,
    slice_apply 0 0 (by omega) (by omega), slice_apply 0 1 (by omega) (by omega), slice_apply 0 2 (by omega) (by omega),
    slice_apply 1 0 (by omega) (by omega), slice_apply 1 1 (by omega) (by omega), slice_apply 1 2 (by omega) (by omega),
    slice_apply 2 0 (by omega) (by omega), slice_apply 2 1 (by omega) (by omega), slice_apply 2 2 (by omega) (by omega),
    ring_apply, Nat.add_zero]

end Cert.MinPool.Body

end
-- ==== Proof.Blocks.lean ====
/-
  From blocks to the array. The region walks a stack of 512 images two at a time: grid point t loads images 2t and 2t + 1
  whole and writes their pooled images back to the same two places of the result stack. So what point t writes back is
  block t of ONE function of the stack the region finds — every image's 3×3 zero-ringed window minimum, `pool3` — and the
  256 blocks cover the result stack: after the region it holds `pool3` of the input stack.
-/
import proofs.«146294_j77695958384786_2_alg».proof.Proof.Gen.KernelIdeal.Frame
import proofs.«146294_j77695958384786_2_alg».proof.Proof.Body
import Idealize.ShloMosaic.Lib.Pipeline.Value
import Idealize.ShloMosaic.Lib.Tactic

noncomputable section

namespace Cert.MinPool.Blocks

open Cert.KernelIdeal Cert.KernelIdeal.Gen Idealize.ShloMosaic Idealize.ShloMosaic.TcCoe Idealize.SL.Sem
open Idealize.ShloMosaic.ValueIdx Cert.MinPool
open Idealize.ShloMosaic.Pipeline (Dat)

variable (m : (ℓ : Loc nD τ sig) → Buf (Elt Ideal) ℓ)

/-- The window minimum of image `n` of a stack at row `h`, column `w`. -/
def poolAt (y : S512x512x512.Idx → Ideal .f32) (n h w : Fin 512) : Ideal .f32 :=
  window9 min (framed Body.zero (fun a b => y (ix3 n a b))) h.val w.val

/-- Every image of a stack of 512 replaced by its 3×3 zero-ringed window minimum. -/
def pool3 (y : S512x512x512.Idx → Ideal .f32) : S512x512x512.Idx → Ideal .f32 := fun i => poolAt y (i 0) (i 1) (i 2)

theorem hz : (![0, 0, 0] : Fin 3 → Nat) = fun _ => 0 := funext fun a => by fin_cases a <;> rfl

/-- The two index maps, decided over the grid: point t is at block (t, 0, 0) of both stacks. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The input block at point t is images 2t and 2t + 1 of the stack the region finds. -/
theorem iblk_apply (c : Dev nD) (t : Fin cfg0.N) (g : Fin 2) (a b : Fin 512) (k : S512x512x512.Idx)
    (hk0 : (k 0).val = t.val * 2 + g.val) (hk1 : (k 1).val = a.val) (hk2 : (k 2).val = b.val) :
    (iblk m c 0 t : Vec Ideal S2x512x512 .f32) (ix3 g a b) = V m c main_v0 k := by
  obtain ⟨e0, e1, e2, -, -, -⟩ := idx_facts t
  unfold iblk
  rw [View.read_apply]
  show V m c main_v0 _ = V m c main_v0 _
  congr 1
  funext d
  apply Fin.ext
  match d with
  | ⟨0, _⟩ => show win0_0.index t 0 * 2 + 1 * g.val = (k 0).val; rw [e0, hk0]; omega
  | ⟨1, _⟩ => show win0_0.index t 1 * 512 + 1 * a.val = (k 1).val; rw [e1, hk1]; omega
  | ⟨2, _⟩ => show win0_0.index t 2 * 512 + 1 * b.val = (k 2).val; rw [e2, hk2]; omega

/-- The body's stored value at an index of a block whose images are images `base g` of a stack `A` is `pool3 A` at the
    index with the same row and column in image `base g`. -/
theorem block_point (A : S512x512x512.Idx → Ideal .f32) (x0 : Vec Ideal S2x512x512 .f32) (base : Fin 2 → Fin 512)
    (hx : ∀ (g : Fin 2) (a b : Fin 512), x0 (ix3 g a b) = A (ix3 (base g) a b))
    (y : S2x512x512.Idx) (k : S512x512x512.Idx) (hk0 : (k 0).val = (base (y 0)).val) (hk1 : (k 1).val = (y 1).val)
    (hk2 : (k 2).val = (y 2).val) :
    k0_pay1 (F := Ideal) x0 y = pool3 A k := by
  obtain ⟨g, h, w, rfl⟩ : ∃ (g : Fin 2) (h w : Fin 512), y = ix3 g h w := ⟨y 0, y 1, y 2, eq_ix3 y⟩
  obtain ⟨n, p, q, rfl⟩ : ∃ (n p q : Fin 512), k = ix3 n p q := ⟨k 0, k 1, k 2, eq_ix3 k⟩
  obtain rfl : n = base g := Fin.ext hk0
  obtain rfl : p = h := Fin.ext hk1
  obtain rfl : q = w := Fin.ext hk2
  rw [Body.pay_apply]
  show _ = window9 min (framed Body.zero (fun a b => A (ix3 (base g) a b))) p.val q.val
  rw [show (fun a b => x0 (ix3 g a b)) = fun a b => A (ix3 (base g) a b) from funext fun a => funext fun b => hx g a b]

/-- What point t writes back is block t of `pool3` of the stack the region finds. -/
theorem flushed_eq (c : Dev nD) (t : Fin cfg0.N) :
    (dats m 0 c).flushed 1 t = ((cfg0.win 1).blk t).view.read (Elt Ideal) (pool3 (V m c main_v0)) := by
  show (cfg0.win 1).cut (grid0.coords t) ((dats m 0 c).after 1 t) = _
  rw [after0_1]
  unfold out0_1
  rw [View.canon_unit_zero hz]
  simp only [View.ld_unit_zero (S := S2x512x512) hz]
  obtain ⟨-, -, -, e3, e4, e5⟩ := idx_facts t
  have hN : cfg0.N = 256 := N_0
  have ht : t.val < 256 := hN ▸ t.isLt
  funext y
  rw [View.read_apply]
  refine block_point (V m c main_v0) (iblk m c 0 t) (fun g => ⟨t.val * 2 + g.val, by omega⟩)
    (fun g a b => iblk_apply m c t g a b (ix3 ⟨t.val * 2 + g.val, by omega⟩ a b) rfl rfl rfl) y
    (((cfg0.win 1).blk t).view.emb y) ?_ ?_ ?_
  · show win0_1.index t 0 * 2 + 1 * (y 0).val = t.val * 2 + (y 0).val; rw [e3]; omega
  · show win0_1.index t 1 * 512 + 1 * (y 1).val = (y 1).val; rw [e4]; omega
  · show win0_1.index t 2 * 512 + 1 * (y 2).val = (y 2).val; rw [e5]; omega

/-- An index of the result stack is in point t's block iff each coordinate is in the block's range on its axis. -/
theorem mem_blk (t : Fin cfg0.N) (i : S512x512x512.Idx) :
    i ∈ ((cfg0.win 1).blk t).view.set ↔ ∀ a : Fin 3, win0_1.index t a * S2x512x512.size a ≤ (i a).val
      ∧ (i a).val < win0_1.index t a * S2x512x512.size a + S2x512x512.size a := by
  show i ∈ ((View.whole main_v1).slice (win0_1.rect t)).set ↔ _
  rw [View.set_slice_whole, Rect.mem_set_unit]
  exact Iff.rfl

/-- After the region the result stack holds `pool3` of the input stack: image n is covered by point n / 2. -/
theorem final (c : Dev nD) : (dats m 0 c).arrAt 1 cfg0.N = pool3 (V m c main_v0) :=
  (dats m 0 c).arrAt_eq_of_cover 1 (pool3 (V m c main_v0)) (fun t _ => flushed_eq m c t) fun i => by
    have hi0 : (i 0).val < 512 := (i 0).isLt
    have hi1 : (i 1).val < 512 := (i 1).isLt
    have hi2 : (i 2).val < 512 := (i 2).isLt
    have hN : cfg0.N = 256 := N_0
    obtain ⟨t, htv⟩ : ∃ t : Fin cfg0.N, t.val = (i 0).val / 2 := ⟨⟨(i 0).val / 2, by rw [hN]; omega⟩, rfl⟩
    obtain ⟨-, -, -, e3, e4, e5⟩ := idx_facts t
    refine ⟨t, flush0_1 t, ?_⟩
    rw [mem_blk]
    intro a
    match a with
    | ⟨0, _⟩ => show win0_1.index t 0 * 2 ≤ (i 0).val ∧ (i 0).val < win0_1.index t 0 * 2 + 2; rw [e3, htv]; omega
    | ⟨1, _⟩ => show win0_1.index t 1 * 512 ≤ (i 1).val ∧ (i 1).val < win0_1.index t 1 * 512 + 512; rw [e4]; omega
    | ⟨2, _⟩ => show win0_1.index t 2 * 512 ≤ (i 2).val ∧ (i 2).val < win0_1.index t 2 * 512 + 512; rw [e5]; omega

end Cert.MinPool.Blocks

end
-- ==== Proof.KernelValue.lean ====
/-
  The kernel's run, read. The program merges the batch and channel axes of the argument into one stack of 512 images
  (image b·64 + c is image (b, c)), pools every image in the region, and splits the stack's axis back. So the result at
  (b, c, i, j) is the window minimum of image (b, c) ringed by zeros at (i, j).
-/
import proofs.«146294_j77695958384786_2_alg».proof.Proof.Gen.KernelIdeal.Frame
import proofs.«146294_j77695958384786_2_alg».proof.Proof.Blocks
import Idealize.ShloMosaic.Lib.Pipeline.Value
import Idealize.ShloMosaic.Lib.StableHlo.Run
import Idealize.ShloMosaic.Lib.Tactic

noncomputable section

namespace Cert.MinPool.KernelValue

open Cert.KernelIdeal Cert.KernelIdeal.Gen Idealize.ShloMosaic Idealize.ShloMosaic.TcCoe Idealize.SL.Sem
open Idealize.ShloMosaic.ValueIdx Cert.MinPool Cert.MinPool.Blocks
open Idealize.ShloMosaic.Pipeline (Dat)

variable (m : (ℓ : Loc nD τ sig) → Buf (Elt Ideal) ℓ) (ρ : Dev nD → PrngReg)

/-- The result as one function of the argument: merge the two leading axes, pool every image, split them back. -/
def result (x : S8x64x512x512.Idx → Ideal .f32) : S8x64x512x512.Idx → Ideal .f32 :=
  shapeCast S8x64x512x512 (pool3 (shapeCast S512x512x512 x Facts₀.shapeCasts_S8x64x512x512_S512x512x512))
    Facts₀.shapeCasts_S512x512x512_S8x64x512x512

/-- Image b·64 + c of the merged stack is image (b, c) of the argument. -/
theorem merged_apply (x : S8x64x512x512.Idx → Ideal .f32) (h : S8x64x512x512.ShapeCasts S512x512x512)
    (b : Fin 8) (c : Fin 64) (p q : Fin 512) :
    shapeCast S512x512x512 x h (ix3 ⟨b.val * 64 + c.val, by omega⟩ p q) = x (ix4 b c p q) :=
  shapeCast_apply x h _ _ (by rw [Shape.rowMajor_val_four, Shape.rowMajor_val_three]; rfl)

/-- Entry (b, c, i, j) of the split stack is entry (i, j) of its image b·64 + c. -/
theorem split_apply (y : S512x512x512.Idx → Ideal .f32) (h : S512x512x512.ShapeCasts S8x64x512x512)
    (b : Fin 8) (c : Fin 64) (i j : Fin 512) :
    shapeCast S8x64x512x512 y h (ix4 b c i j) = y (ix3 ⟨b.val * 64 + c.val, by omega⟩ i j) :=
  shapeCast_apply y h _ _ (by rw [Shape.rowMajor_val_four, Shape.rowMajor_val_three]; rfl)

/-- The result at (b, c, i, j): the window minimum of image (b, c) ringed by zeros. -/
theorem result_apply (x : S8x64x512x512.Idx → Ideal .f32) (b : Fin 8) (c : Fin 64) (i j : Fin 512) :
    result x (ix4 b c i j) = window9 min (framed Body.zero (fun p q => x (ix4 b c p q))) i.val j.val := by
  unfold result
  rw [split_apply]
  show poolAt _ ⟨b.val * 64 + c.val, _⟩ i j = _
  unfold poolAt
  rw [show (fun p q => shapeCast S512x512x512 x Facts₀.shapeCasts_S8x64x512x512_S512x512x512 (ix3 ⟨b.val * 64 + c.val, by omega⟩ p q))
      = fun p q => x (ix4 b c p q) from funext fun p => funext fun q => merged_apply x _ b c p q]

/-- The stack the region finds is the argument with its two leading axes merged. -/
theorem V_main_v0 (c : Dev nD) : (V m c main_v0 : S512x512x512.Idx → Ideal .f32)
    = shapeCast S512x512x512 (m ((c : Thread nD τ).loc main_arg0)) Facts₀.shapeCasts_S8x64x512x512_S512x512x512 := by
  show StableHlo.after hostOps0 (fun b => m (c, b)) (Proc.devRef .tc main_v0) = _
  after_results
  rfl

/-- The line after the region splits the pooled stack's axis back. -/
theorem tail_v2 (c : Dev nD) : Pipeline.afterTail₀ cfgs (dats m) 0 (V0 m) [hostOps1] c main_v2
    = result (m ((c : Thread nD τ).loc main_arg0)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v1)
      = pool3 (shapeCast S512x512x512 (m ((c : Thread nD τ).loc main_arg0)) Facts₀.shapeCasts_S8x64x512x512_S512x512x512) :=
    (Pipeline.withArrays_arr spec0 launch0.win.arr_inj c _ _ 1).trans
      ((Blocks.final m c).trans (congrArg pool3 (V_main_v0 m c)))
  rw [e]
  rfl

/-- The run, read: the result array at `result` of the argument, the argument unchanged. -/
theorem run : θ_run defs (onTc (τ := τ) (main (F := Ideal))) ⟨m, fun _ => 0, ρ⟩ fun r => ∀ c : Dev nD,
      r.2.mem ((c : Thread nD τ).loc main_v2) = result (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (tail_v2 m c),
       ((h c).2 main_arg0 (Pipeline.mem_restRefs_of main_arg0 (by decide) (by decide))).trans (W_main_arg0 m (dats m) c)⟩)
    (run_main m ρ)

end Cert.MinPool.KernelValue

end
-- ==== Proof.LibReduceWindow3x3.lean ====
/-
  The host's spelling of the 3×3 window over a ringed stack of images [8, 64, 512, 512].

  `pad_ring_apply`: a `pad` by one entry of a constant, low and high, on the last two axes, read at (b, c, r, s), is the
  ringed image of LibRingWindow (`framed`): the operand at (b, c, r − 1, s − 1) inside, the constant on the ring.

  `reduceWindow_3x3_apply`: a `reduce_window` with window (1, 1, 3, 3), unit strides and no padding over a
  [8, 64, 514, 514] array, read at (b, c, i, j), is the left fold of its body from the initial value over the nine entries
  (i + di, j + dj), left to right and row by row (`window9From`): the window's positions in row-major order are listed
  once (`cells`), and every position lies inside the array.
-/
import Idealize.ShloMosaic.Lib.ValueIdx
import Idealize.ShloMosaic.Lib.Pipeline.Value
import Idealize.ShloMosaic.Lib.KernelVsHost
import proofs.«146294_j77695958384786_2_alg».proof.Proof.LibRingWindow

noncomputable section

namespace Cert.MinPool

open Idealize.ShloMosaic Idealize.ShloMosaic.ValueIdx

variable {α : Type}

abbrev T8x64x512x512 : Shape := ⟨4, ![8, 64, 512, 512]⟩
abbrev T8x64x514x514 : Shape := ⟨4, ![8, 64, 514, 514]⟩
/-- The window, as a shape: its indices are the window's positions. -/
abbrev W3 : Shape := ⟨4, ![1, 1, 3, 3]⟩

/-- A pad by one entry of `v` around the last two axes is the ringed image. -/
theorem pad_ring_apply (x : T8x64x512x512.Idx → α) {u : Shape} (v : u.Idx → α)
    (h : T8x64x512x512.Pads ![0, 0, 1, 1] ![0, 0, 1, 1] ![0, 0, 0, 0] T8x64x514x514) (hu : 0 < u.numel)
    (b : Fin 8) (c : Fin 64) (r s : Fin 514) :
    pad T8x64x514x514 ![0, 0, 1, 1] ![0, 0, 1, 1] ![0, 0, 0, 0] x v h hu (ix4 b c r s)
      = framed (v (Shape.Idx.first hu)) (fun p q => x (ix4 b c p q)) r.val s.val := by
  unfold framed
  by_cases hs : 1 ≤ s.val ∧ s.val ≤ 512
  · rw [dif_pos hs]
    by_cases hr : 1 ≤ r.val ∧ r.val ≤ 512
    · rw [dif_pos hr]
      exact pad_apply_of_inside _ _ _ x v h hu (ix4 b c r s) (ix4 b c ⟨r.val - 1, by omega⟩ ⟨s.val - 1, by omega⟩)
        fun a => match a with
        | ⟨0, _⟩ => by show b.val = 0 + b.val * 1; omega
        | ⟨1, _⟩ => by show c.val = 0 + c.val * 1; omega
        | ⟨2, _⟩ => by show r.val = 1 + (r.val - 1) * 1; omega
        | ⟨3, _⟩ => by show s.val = 1 + (s.val - 1) * 1; omega
    · rw [dif_neg hr]
      exact pad_apply_of_not_inside _ _ _ x v h hu (ix4 b c r s) (2 : Fin 4) (by
        show ¬(1 ≤ r.val ∧ (r.val - 1) % 1 = 0 ∧ (r.val - 1) / 1 < 512)
        omega)
  · rw [dif_neg hs]
    exact pad_apply_of_not_inside _ _ _ x v h hu (ix4 b c r s) (3 : Fin 4) (by
      show ¬(1 ≤ s.val ∧ (s.val - 1) % 1 = 0 ∧ (s.val - 1) / 1 < 512)
      omega)

theorem W3_numel : W3.numel = 9 := by decide

theorem finRange_cast {n m : Nat} (h : n = m) : List.finRange n = (List.finRange m).map (Fin.cast h.symm) := by
  subst h; simp

/-- Position (di, dj) of the window. -/
abbrev cell (di dj : Fin 3) : W3.Idx := ix4 (0 : Fin 1) (0 : Fin 1) di dj

/-- The window's positions in row-major order. -/
theorem cells : (List.finRange W3.numel).map W3.rowMajor.symm
    = [cell 0 0, cell 0 1, cell 0 2, cell 1 0, cell 1 1, cell 1 2, cell 2 0, cell 2 1, cell 2 2] := by
  have c : ∀ (k : Fin 9) (i : W3.Idx), (W3.rowMajor i).val = k.val → W3.rowMajor.symm (Fin.cast W3_numel.symm k) = i :=
    fun k i h => (Equiv.symm_apply_eq _).mpr (Fin.ext h.symm)
  rw [finRange_cast W3_numel, show List.finRange 9 = [0, 1, 2, 3, 4, 5, 6, 7, 8] from by decide]
  simp only [List.map_cons, List.map_nil]
  rw [c 0 (cell 0 0) (by rw [Shape.rowMajor_val_four]; rfl), c 1 (cell 0 1) (by rw [Shape.rowMajor_val_four]; rfl),
    c 2 (cell 0 2) (by rw [Shape.rowMajor_val_four]; rfl), c 3 (cell 1 0) (by rw [Shape.rowMajor_val_four]; rfl),
    c 4 (cell 1 1) (by rw [Shape.rowMajor_val_four]; rfl), c 5 (cell 1 2) (by rw [Shape.rowMajor_val_four]; rfl),
    c 6 (cell 2 0) (by rw [Shape.rowMajor_val_four]; rfl), c 7 (cell 2 1) (by rw [Shape.rowMajor_val_four]; rfl),
    c 8 (cell 2 2) (by rw [Shape.rowMajor_val_four]; rfl)]

/-- The window reduction read at (b, c, i, j), over any reading `X` of the image (b, c) by row and column. -/
theorem reduceWindow_3x3_apply (f : α → α → α) (x : T8x64x514x514.Idx → α) {u : Shape} (init : u.Idx → α)
    (h : T8x64x514x514.ReduceWindows ![1, 1, 3, 3] ![1, 1, 1, 1] ![0, 0, 0, 0] ![0, 0, 0, 0] T8x64x512x512) (hu : 0 < u.numel)
    (b : Fin 8) (c : Fin 64) (i j : Fin 512) (X : Nat → Nat → α) (hX : ∀ r s : Fin 514, x (ix4 b c r s) = X r.val s.val) :
    Host.reduceWindow f ![1, 1, 3, 3] ![1, 1, 1, 1] ![0, 0, 0, 0] ![0, 0, 0, 0] x init h hu (ix4 b c i j)
      = window9From f (init (Shape.Idx.first hu)) X i.val j.val := by
  unfold Host.reduceWindow
  dsimp only
  let G : α → W3.Idx → α := fun r q => f r (X (i.val + (q 2).val) (j.val + (q 3).val))
  refine (congrArg (fun F => List.foldl F (init (Shape.Idx.first hu)) (List.finRange W3.numel))
    (?_ : _ = fun r n => G r (W3.rowMajor.symm n))).trans ?_
  · funext r n
    have q0 : (W3.rowMajor.symm n 0).val < 1 := (W3.rowMajor.symm n 0).isLt
    have q1 : (W3.rowMajor.symm n 1).val < 1 := (W3.rowMajor.symm n 1).isLt
    have q2 : (W3.rowMajor.symm n 2).val < 3 := (W3.rowMajor.symm n 2).isLt
    have q3 : (W3.rowMajor.symm n 3).val < 3 := (W3.rowMajor.symm n 3).isLt
    show f r _ = f r _
    congr 1
    split
    · rw [← hX ⟨i.val + (W3.rowMajor.symm n 2).val, by omega⟩ ⟨j.val + (W3.rowMajor.symm n 3).val, by omega⟩]
      congr 1
      funext a
      apply Fin.ext
      match a with
      | ⟨0, _⟩ => show b.val * 1 + (W3.rowMajor.symm n 0).val - 0 = b.val; omega
      | ⟨1, _⟩ => show c.val * 1 + (W3.rowMajor.symm n 1).val - 0 = c.val; omega
      | ⟨2, _⟩ => show i.val * 1 + (W3.rowMajor.symm n 2).val - 0 = i.val + (W3.rowMajor.symm n 2).val; omega
      | ⟨3, _⟩ => show j.val * 1 + (W3.rowMajor.symm n 3).val - 0 = j.val + (W3.rowMajor.symm n 3).val; omega
    · rename_i hin
      exfalso
      apply hin
      intro a
      match a with
      | ⟨0, _⟩ =>
        show 0 ≤ b.val * 1 + (W3.rowMajor.symm n 0).val ∧ b.val * 1 + (W3.rowMajor.symm n 0).val - 0 < 8
        omega
      | ⟨1, _⟩ =>
        show 0 ≤ c.val * 1 + (W3.rowMajor.symm n 1).val ∧ c.val * 1 + (W3.rowMajor.symm n 1).val - 0 < 64
        omega
      | ⟨2, _⟩ =>
        show 0 ≤ i.val * 1 + (W3.rowMajor.symm n 2).val ∧ i.val * 1 + (W3.rowMajor.symm n 2).val - 0 < 514
        omega
      | ⟨3, _⟩ =>
        show 0 ≤ j.val * 1 + (W3.rowMajor.symm n 3).val ∧ j.val * 1 + (W3.rowMajor.symm n 3).val - 0 < 514
        omega
  · have e2 : (List.finRange W3.numel).foldl (fun r n => G r (W3.rowMajor.symm n)) (init (Shape.Idx.first hu))
        = ((List.finRange W3.numel).map W3.rowMajor.symm).foldl G (init (Shape.Idx.first hu)) :=
      (List.foldl_map ..).symm
    show (List.finRange W3.numel).foldl (fun r n => G r (W3.rowMajor.symm n)) (init (Shape.Idx.first hu)) = _
    rw [e2, cells]
    rfl

end Cert.MinPool

end
-- ==== Proof.RefRead.lean ====
/-
  The reference's result read at an index: at (b, c, i, j) it is the minimum over the 3×3 window with top-left corner
  (i, j) of image (b, c) ringed by zeros. The host pads the argument by one zero around the last two axes and folds the
  exact minimum over each window from +∞; +∞ is the minimum's identity on the extended reals, so the fold is the minimum
  of the nine entries alone.
-/
import proofs.«146294_j77695958384786_2_alg».proof.Proof.Gen.ReferenceIdeal.Read
import proofs.«146294_j77695958384786_2_alg».proof.Proof.LibReduceWindow3x3
import Idealize.ShloMosaic.PureOps.Ideal

noncomputable section

namespace Cert.MinPool.Ref

open Cert.ReferenceIdeal Cert.ReferenceIdeal.Gen Cert.ReferenceIdeal.Read Idealize.ShloMosaic Idealize.ShloMosaic.ValueIdx
open Cert.MinPool

/-- The zero the host pads with, as an extended real's word. -/
abbrev zero : Ideal .f32 := FloatOps.ofBits (F := Ideal) .f32 0x00000000#32

/-- The word the window fold starts from is +∞. -/
theorem top_word : Ideal.ofBits .f32 0x7F800000#32 = (⊤ : EReal) := by
  simp [Ideal.ofBits, Ideal.ieee]

/-- The padded argument is the ringed image. -/
theorem padded_apply (x : (⟨S8x64x512x512, .f32⟩ : BufTy).Contents (Elt Ideal)) (b : Fin 8) (c : Fin 64) (r s : Fin 514) :
    val_main_v0 (F := Ideal) x (ix4 b c r s) = framed zero (fun p q => x (ix4 b c p q)) r.val s.val := by
  unfold val_main_v0
  exact pad_ring_apply x _ _ _ b c r s

/-- The reference's result at (b, c, i, j). -/
theorem ref_apply (x : (⟨S8x64x512x512, .f32⟩ : BufTy).Contents (Elt Ideal)) (b : Fin 8) (c : Fin 64) (i j : Fin 512) :
    val_main_v1 (F := Ideal) x (ix4 b c i j) = window9 min (framed zero (fun p q => x (ix4 b c p q))) i.val j.val := by
  unfold val_main_v1
  rw [reduceWindow_3x3_apply _ _ _ _ _ b c i j (framed zero (fun p q => x (ix4 b c p q))) (padded_apply x b c)]
  refine window9From_of_left_id _ _ (fun a => ?_) _ _ _
  show min (Ideal.ofBits .f32 0x7F800000#32) a = a
  rw [top_word]
  exact min_top_left a

end Cert.MinPool.Ref

end
-- ==== Proof.lean ====
/-
  A 3×3 minimum filter with stride one over every image of a float32[8, 64, 512, 512] array, each image ringed by one
  entry of zero that takes part in the minimum.

  The kernel merges the batch and channel axes into a stack of 512 images, walks the stack two images at a time, rings
  each loaded image with zeros by two concatenations, takes nine unit-stride slices of the ringed image and combines them
  with the minimum left to right and row by row, and splits the stack's axis back. The reference pads the argument with
  zeros on the last two axes and folds the minimum over each 3×3 window from +∞, in the same order.

  At the extended reals the minimum is exact and +∞ is its identity, so both results at (b, c, i, j) are the minimum of the
  same nine entries of image (b, c) ringed by zeros, combined in the same order: one function of the argument. No law that
  needs finite inputs is used. The ideal pass rewrote nothing in the kernel, so the idealization claim is trivial.

  Modules: LibRingWindow (the ringed image and the window, the kernel's concatenations and slices read at an index),
  LibReduceWindow3x3 (the host's pad and window reduction read at an index), Body (the kernel body's stored value at an
  index), Blocks (from the grid's blocks to the whole stack), KernelValue (the kernel's run read), RefRead (the
  reference's result at an index).
-/
import proofs.«146294_j77695958384786_2_alg».proof.Defs
import proofs.«146294_j77695958384786_2_alg».proof.Proof.Gen.Kernel
import proofs.«146294_j77695958384786_2_alg».proof.Proof.Gen.Kernel.Skeleton
import proofs.«146294_j77695958384786_2_alg».proof.Proof.Gen.Kernel.Launch
import proofs.«146294_j77695958384786_2_alg».proof.Proof.Gen.Kernel.Points
import proofs.«146294_j77695958384786_2_alg».proof.Proof.Gen.Kernel.Frame
import proofs.«146294_j77695958384786_2_alg».proof.Proof.Gen.KernelIdeal
import proofs.«146294_j77695958384786_2_alg».proof.Proof.Gen.KernelIdeal.Skeleton
import proofs.«146294_j77695958384786_2_alg».proof.Proof.Gen.KernelIdeal.Launch
import proofs.«146294_j77695958384786_2_alg».proof.Proof.Gen.KernelIdeal.Points
import proofs.«146294_j77695958384786_2_alg».proof.Proof.Gen.KernelIdeal.Frame
import proofs.«146294_j77695958384786_2_alg».proof.Proof.Gen.ReferenceIdeal
import proofs.«146294_j77695958384786_2_alg».proof.Proof.Gen.Pre_finite_inputs
import proofs.«146294_j77695958384786_2_alg».proof.Proof.Gen.ReferenceIdeal.Run
import proofs.«146294_j77695958384786_2_alg».proof.Proof.Gen.ReferenceIdeal.Read
import proofs.«146294_j77695958384786_2_alg».proof.Proof.KernelValue
import proofs.«146294_j77695958384786_2_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- The reference's result and the kernel's are one function of the argument: at (b, c, i, j) both are the minimum over
    the 3×3 window at (i, j) of image (b, c) ringed by zeros, the nine entries combined in the same order. -/
theorem result_eq (x : Cert.KernelIdeal.S8x64x512x512.Idx → Ideal .f32) :
    Cert.ReferenceIdeal.Read.val_main_v1 (F := Ideal) x = Cert.MinPool.KernelValue.result x := by
  funext i
  obtain ⟨b, c, p, q, rfl⟩ : ∃ (b : Fin 8) (c : Fin 64) (p q : Fin 512), i = ix4 b c p q :=
    ⟨i 0, i 1, i 2, i 3, eq_ix4 i⟩
  rw [Cert.MinPool.Ref.ref_apply, Cert.MinPool.KernelValue.result_apply]

/-- From memories agreeing on the argument both programs end with the same result array. -/
theorem algebraic : Cert.algebraic_KernelIdeal_ReferenceIdeal := by
  intro m ρ m' ρ' _ hagree
  refine ⟨fun c => Cert.MinPool.KernelValue.result (m ((c.tc : Thread Cert.KernelIdeal.nD Cert.KernelIdeal.τ).loc Cert.KernelIdeal.main_arg0)),
    Cert.MinPool.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, hagree c]
  exact result_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
